-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x1024 : Shape := ⟨2, ![4096, 1024]⟩
abbrev S1024 : Shape := ⟨1, ![1024]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x1024 .f32) (main_arg2 : FVec F S1024 .f32) (main_arg3 : FVec F S4096x1024 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S4x2048x4096 : Shape := ⟨3, ![4, 2048, 4096]⟩
abbrev S4096x1024 : Shape := ⟨2, ![4096, 1024]⟩
abbrev S1024 : Shape := ⟨1, ![1024]⟩
abbrev S4096 : Shape := ⟨1, ![4096]⟩
abbrev S8192x4096 : Shape := ⟨2, ![8192, 4096]⟩
abbrev S1x1024 : Shape := ⟨2, ![1, 1024]⟩
abbrev S1x4096 : Shape := ⟨2, ![1, 4096]⟩
abbrev S256x4096 : Shape := ⟨2, ![256, 4096]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096, .f32⟩
  | .hbm, ⟨5, _⟩ => ⟨S8192x4096, .f32⟩
  | .hbm, ⟨6, _⟩ => ⟨S4096x1024, .bf16⟩
  | .hbm, ⟨7, _⟩ => ⟨S4096x1024, .bf16⟩
  | .hbm, ⟨8, _⟩ => ⟨S1x1024, .f32⟩
  | .hbm, ⟨9, _⟩ => ⟨S1x4096, .f32⟩
  | .hbm, ⟨10, _⟩ => ⟨S8192x4096, .f32⟩
  | .hbm, ⟨11, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x4096_S8192x4096 : S4x2048x4096.ShapeCasts S8192x4096
  bitsLt_bf16_f32 : FTy.bits .bf16 < FTy.bits .f32
  shapeCasts_S1024_S1x1024 : S1024.ShapeCasts S1x1024
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x4096_S4096x1024_S256x1024_1_0_0_1_n_n_wf : DotDims.WF S256x4096 S4096x1024 S256x1024 [1] [0] [0] [1] [] []
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S8192x4096.size a
  hwx0_5 : ∀ i : grid0.Coords, EltTy.bits .f32 = 32 ∨ (Rect.block (s := S8192x4096) S256x4096.size (cc0_transform_5 i) (hinb0_5 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x1024 : Shape := ⟨2, ![4096, 1024]⟩
abbrev S1024 : Shape := ⟨1, ![1024]⟩
abbrev S4096 : Shape := ⟨1, ![4096]⟩
abbrev S4x2048x1024 : Shape := ⟨3, ![4, 2048, 1024]⟩
abbrev S1x1x1024 : Shape := ⟨3, ![1, 1, 1024]⟩
abbrev S1x1x4096 : Shape := ⟨3, ![1, 1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096, .f32⟩
  | .hbm, ⟨5, _⟩ => ⟨S4x2048x1024, .f32⟩
  | .hbm, ⟨6, _⟩ => ⟨S1x1x1024, .f32⟩
  | .hbm, ⟨7, _⟩ => ⟨S4x2048x1024, .f32⟩
  | .hbm, ⟨8, _⟩ => ⟨S4x2048x1024, .f32⟩
  | .hbm, ⟨9, _⟩ => ⟨S4x2048x4096, .f32⟩
  | .hbm, ⟨10, _⟩ => ⟨S1x1x4096, .f32⟩
  | .hbm, ⟨11, _⟩ => ⟨S4x2048x4096, .f32⟩
  | .hbm, ⟨12, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x1024_S4x2048x1024_2_0_01_1_n_n_wf : DotDims.WF S4x2048x4096 S4096x1024 S4x2048x1024 [2] [0] [0, 1] [1] [] []
  dot_S4x2048x1024_S4096x1024_S4x2048x4096_2_1_01_0_n_n_wf : DotDims.WF S4x2048x1024 S4096x1024 S4x2048x4096 [2] [1] [0, 1] [0] [] []

variable [Facts₀]

def dot_S4x2048x4096_S4096x1024_S4x2048x1024_2_0_01_1_n_n : DotDims S4x2048x4096 S4096x1024 S4x2048x1024 where
  lhsContracting := [2]
  rhsContracting := [0]
  lhsNonContracting := [0, 1]
  rhsNonContracting := [1]
  lhsBatch := []
  rhsBatch := []
  wf := dot_S4x2048x4096_S4096x1024_S4x2048x1024_2_0_01_1_n_n_wf
def dot_S4x2048x1024_S4096x1024_S4x2048x4096_2_1_01_0_n_n : DotDims S4x2048x1024 S4096x1024 S4x2048x4096 where
  lhsContracting := [2]
  rhsContracting := [1]
  lhsNonContracting := [0, 1]
  rhsNonContracting := [0]
  lhsBatch := []
  rhsBatch := []
  wf := dot_S4x2048x1024_S4096x1024_S4x2048x4096_2_1_01_0_n_n_wf

class Facts : Prop extends Facts₀ where

variable [Facts]
-- ==== Proof.LowRank.lean ====
/-
  THE SPECIFICATION: a linear layer whose 4096×4096 weight is kept as a rank-1024 factorization.

  For an input `x[b, s, ·]` of 4096 features, an input factor `Vt` (4096×1024), singular values `S` (1024), an output
  factor `U` (4096×1024) and a bias (4096), the layer's output feature `o` at position `(b, s)` is

    y[b, s, o] = (∑ r, ((∑ i, x[b, s, i] · Vt[i, r]) · S[r]) · U[o, r]) + bias[o]

  over the extended reals, the sums taken in this grouping: the input is first projected onto the 1024 ranks, each rank is
  scaled by its singular value, and the scaled ranks are expanded to the output features. Both programs compute exactly
  this grouping, so no law beyond reading each operation at an index is needed, and no input has to be finite.
-/
import Idealize.ShloMosaic.PureOps.Ideal
import Idealize.ShloMosaic.Lib.ValueIdx

noncomputable section

open scoped BigOperators

namespace Cert.LowRank

open Idealize.ShloMosaic Idealize.ShloMosaic.ValueIdx

/-- The low-rank linear layer, entry by entry. -/
def linear (x : (⟨3, ![4, 2048, 4096]⟩ : Shape).Idx → EReal) (U : (⟨2, ![4096, 1024]⟩ : Shape).Idx → EReal)
    (S : (⟨1, ![1024]⟩ : Shape).Idx → EReal) (Vt : (⟨2, ![4096, 1024]⟩ : Shape).Idx → EReal)
    (bias : (⟨1, ![4096]⟩ : Shape).Idx → EReal) : (⟨3, ![4, 2048, 4096]⟩ : Shape).Idx → EReal := fun i =>
  (∑ r : Fin 1024,
      ((∑ f : Fin 4096, x (ix3 (⟨(i 0).val, (i 0).isLt⟩ : Fin 4) (⟨(i 1).val, (i 1).isLt⟩ : Fin 2048) f) * Vt (ix2 f r))
        * S (ix1 r)) * U (ix2 (⟨(i 2).val, (i 2).isLt⟩ : Fin 4096) r))
    + bias (ix1 (⟨(i 2).val, (i 2).isLt⟩ : Fin 4096))

end Cert.LowRank

end
-- ==== Proof.Body.lean ====
/-
  The kernel body's arithmetic, at the exact values, read entry by entry.

  One grid point holds a block of 256 rows of the input. The body multiplies that block by the 4096×1024 input factor (a
  sum over the 4096 input features), scales column `k` of the product by the `k`-th singular value, multiplies the scaled
  block by the transpose of the 4096×1024 output factor (a sum over the 1024 ranks, both operands contracted on their
  last axis), and adds the bias of the output column. A change of float format is the identity on exact values, and a
  product into the zero accumulator is the bare sum. So entry `(p, q)` of the stored block is

    (∑ k, ((∑ j, x[p, j] · vt[j, k]) · s[0, k]) · u[q, k]) + b[0, q].
-/
import proofs.«180880_j33303176413292_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## Which entries a product reads

For an output entry and a value of the contracted coordinate, the row of the left operand is the output's row and the
free coordinate of the right operand is the output's column; the other coordinate of each is the contracted one. -/

theorem project_lhs_row (i : S256x1024.Idx) (c : dot_S256x4096_S4096x1024_S256x1024_1_0_0_1_n_n.contr.Idx) : (dot_S256x4096_S4096x1024_S256x1024_1_0_0_1_n_n.lhsIdx i c 0).val = (i 0).val := by
  unfold DotDims.lhsIdx
  rw [dif_neg (show ¬(0 : Fin S256x4096.rank) ∈ dot_S256x4096_S4096x1024_S256x1024_1_0_0_1_n_n.lhsBatch by decide),
    dif_pos (show (0 : Fin S256x4096.rank) ∈ dot_S256x4096_S4096x1024_S256x1024_1_0_0_1_n_n.lhsNonContracting by decide)]
  rfl
theorem project_rhs_col (i : S256x1024.Idx) (c : dot_S256x4096_S4096x1024_S256x1024_1_0_0_1_n_n.contr.Idx) : (dot_S256x4096_S4096x1024_S256x1024_1_0_0_1_n_n.rhsIdx i c 1).val = (i 1).val := by
  unfold DotDims.rhsIdx
  rw [dif_neg (show ¬(1 : Fin S4096x1024.rank) ∈ dot_S256x4096_S4096x1024_S256x1024_1_0_0_1_n_n.rhsBatch by decide),
    dif_pos (show (1 : Fin S4096x1024.rank) ∈ dot_S256x4096_S4096x1024_S256x1024_1_0_0_1_n_n.rhsNonContracting by decide)]
  rfl
theorem expand_lhs_row (i : S256x4096.Idx) (c : dot_S256x1024_S4096x1024_S256x4096_1_1_0_0_n_n.contr.Idx) : (dot_S256x1024_S4096x1024_S256x4096_1_1_0_0_n_n.lhsIdx i c 0).val = (i 0).val := by
  unfold DotDims.lhsIdx
  rw [dif_neg (show ¬(0 : Fin S256x1024.rank) ∈ dot_S256x1024_S4096x1024_S256x4096_1_1_0_0_n_n.lhsBatch by decide),
    dif_pos (show (0 : Fin S256x1024.rank) ∈ dot_S256x1024_S4096x1024_S256x4096_1_1_0_0_n_n.lhsNonContracting by decide)]
  rfl
theorem expand_rhs_row (i : S256x4096.Idx) (c : dot_S256x1024_S4096x1024_S256x4096_1_1_0_0_n_n.contr.Idx) : (dot_S256x1024_S4096x1024_S256x4096_1_1_0_0_n_n.rhsIdx i c 0).val = (i 1).val := by
  unfold DotDims.rhsIdx
  rw [dif_neg (show ¬(0 : Fin S4096x1024.rank) ∈ dot_S256x1024_S4096x1024_S256x4096_1_1_0_0_n_n.rhsBatch by decide),
    dif_pos (show (0 : Fin S4096x1024.rank) ∈ dot_S256x1024_S4096x1024_S256x4096_1_1_0_0_n_n.rhsNonContracting by decide)]
  rfl

/-! ## The two products on the matrix unit -/

/-- The projection onto the ranks: the block times the input factor, into the zero accumulator, at `(p, k)` is the sum
    over the input features `j` of `A[p, j] · B[j, k]`. -/
theorem project_apply (A : FVec Ideal S256x4096 .bf16) (B : FVec Ideal S4096x1024 .bf16) (p : Fin 256) (k : Fin 1024) :
    matmul dot_S256x4096_S4096x1024_S256x1024_1_0_0_1_n_n none A B (constant (F := Ideal) S256x1024 .f32 0x00000000#32) (ix2 p k)
      = ∑ j : Fin 4096, A (ix2 p j) * B (ix2 j k) := by
  show FloatOps.matmul _ none A B _ (ix2 p k) = _
  rw [Ideal.matmul_constant_zero_apply, ← Equiv.sum_comp (contrEquiv1 dot_S256x4096_S4096x1024_S256x1024_1_0_0_1_n_n 4096 rfl rfl).symm]
  refine Finset.sum_congr rfl fun j _ => ?_
  have hj := contrEquiv1_symm_val dot_S256x4096_S4096x1024_S256x1024_1_0_0_1_n_n 4096 rfl rfl j
  have el : dot_S256x4096_S4096x1024_S256x1024_1_0_0_1_n_n.lhsIdx (ix2 p k) ((contrEquiv1 dot_S256x4096_S4096x1024_S256x1024_1_0_0_1_n_n 4096 rfl rfl).symm j) = ix2 p j :=
    funext fun a => Fin.ext (by
      match a with
      | ⟨0, _⟩ => exact project_lhs_row _ _
      | ⟨1, _⟩ => exact (dot_S256x4096_S4096x1024_S256x1024_1_0_0_1_n_n.lhsIdx_val_of_single rfl _ _).trans hj)
  have er : dot_S256x4096_S4096x1024_S256x1024_1_0_0_1_n_n.rhsIdx (ix2 p k) ((contrEquiv1 dot_S256x4096_S4096x1024_S256x1024_1_0_0_1_n_n 4096 rfl rfl).symm j) = ix2 j k :=
    funext fun a => Fin.ext (by
      match a with
      | ⟨0, _⟩ => exact (dot_S256x4096_S4096x1024_S256x1024_1_0_0_1_n_n.rhsIdx_val_of_single rfl _ _).trans hj
      | ⟨1, _⟩ => exact project_rhs_col _ _)
  rw [el, er]

/-- The expansion to the output features: the scaled block times the TRANSPOSE of the output factor — both operands are
    contracted on their last axis —, into the zero accumulator, at `(p, q)` is the sum over the ranks `k` of
    `A[p, k] · B[q, k]`. -/
theorem expand_apply (A : FVec Ideal S256x1024 .bf16) (B : FVec Ideal S4096x1024 .bf16) (p : Fin 256) (q : Fin 4096) :
    matmul dot_S256x1024_S4096x1024_S256x4096_1_1_0_0_n_n none A B (constant (F := Ideal) S256x4096 .f32 0x00000000#32) (ix2 p q)
      = ∑ k : Fin 1024, A (ix2 p k) * B (ix2 q k) := by
  show FloatOps.matmul _ none A B _ (ix2 p q) = _
  rw [Ideal.matmul_constant_zero_apply, ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p q) ((contrEquiv1 dot_S256x1024_S4096x1024_S256x4096_1_1_0_0_n_n 1024 rfl rfl).symm k) = ix2 p k :=
    funext fun a => Fin.ext (by
      match a with
      | ⟨0, _⟩ => exact expand_lhs_row _ _
      | ⟨1, _⟩ => exact (dot_S256x1024_S4096x1024_S256x4096_1_1_0_0_n_n.lhsIdx_val_of_single rfl _ _).trans hk)
  have er : dot_S256x1024_S4096x1024_S256x4096_1_1_0_0_n_n.rhsIdx (ix2 p q) ((contrEquiv1 dot_S256x1024_S4096x1024_S256x4096_1_1_0_0_n_n 1024 rfl rfl).symm k) = ix2 q k :=
    funext fun a => Fin.ext (by
      match a with
      | ⟨0, _⟩ => exact expand_rhs_row _ _
      | ⟨1, _⟩ => exact (dot_S256x1024_S4096x1024_S256x4096_1_1_0_0_n_n.rhsIdx_val_of_single rfl _ _).trans hk)
  rw [el, er]

/-! ## The stored block -/

/-- Entry `(p, q)` of the block the body stores, from the five blocks it loads. -/
theorem stored_apply (x : Vec Ideal S256x4096 .f32) (vt : Vec Ideal S4096x1024 .bf16) (s : Vec Ideal S1x1024 .f32)
    (u : Vec Ideal S4096x1024 .bf16) (b : Vec Ideal S1x4096 .f32) (p : Fin 256) (q : Fin 4096) :
    k0_pay1 (F := Ideal) x vt s u b (ix2 p q)
      = (∑ k : Fin 1024, ((∑ j : Fin 4096, x (ix2 p j) * vt (ix2 j k)) * s (ix2 (0 : Fin 1) k)) * u (ix2 q k))
        + b (ix2 (0 : Fin 1) q) := by
  unfold k0_pay1
  rw [addf_apply]
  refine congrArg₂ (· + ·) ?_ ?_
  · refine (expand_apply _ _ p q).trans (Finset.sum_congr rfl fun k _ => ?_)
    refine congrArg₂ (· * ·) ?_ (congrFun (shapeCast_self u _) _)
    rw [truncf_apply, mulf_apply]
    refine congrArg₂ (· * ·) ?_ ?_
    · refine (project_apply _ _ p k).trans (Finset.sum_congr rfl fun j _ => ?_)
      refine congrArg₂ (· * ·) ?_ (congrFun (shapeCast_self vt _) _)
      rw [truncf_apply]
      exact congrFun (shapeCast_self x _) _
    · refine (broadcastTo_1b_ab_apply _ _ p k).trans ?_
      exact congrFun (shapeCast_self s _) _
  · refine (broadcastTo_1b_ab_apply _ _ p q).trans ?_
    exact congrFun (shapeCast_self b _) _

end Cert.KernelIdeal.Body

end
-- ==== Proof.Blocks.lean ====
/-
  From the blocks the grid points write back to the whole 8192×4096 array.

  The grid has 32 points. Point `t` reads rows `256·t … 256·t + 255` of the flattened input (all 4096 columns) and the
  whole of the two factors, the singular values and the bias — those four windows never move —, and writes rows
  `256·t … 256·t + 255` of the result. Entry `(p, q)` of what it writes depends only on row `256·t + p` of the input, so
  each written block is the restriction of ONE function of the five arrays, `rowsOut`; the 32 blocks tile the 8192 rows
  (row `r` lies in the block of point `r / 256`), so after the last write-back the array is that function.
-/
import proofs.«180880_j33303176413292_2_alg».proof.Proof.Gen.KernelIdeal.Frame
import proofs.«180880_j33303176413292_2_alg».proof.Proof.Body
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The flattened result, entry `(r, q)`: the input's row `r` projected onto the ranks, scaled rank by rank, expanded to
    output feature `q`, plus that feature's bias. -/
def rowsOut (X : S8192x4096.Idx → EReal) (VT : S4096x1024.Idx → EReal) (S : S1x1024.Idx → EReal)
    (U : S4096x1024.Idx → EReal) (B : S1x4096.Idx → EReal) : S8192x4096.Idx → EReal := fun i =>
  (∑ k : Fin 1024, ((∑ j : Fin 4096, X (ix2 (⟨(i 0).val, idx2_lt0 i⟩ : Fin 8192) j) * VT (ix2 j k)) * S (ix2 (0 : Fin 1) k))
      * U (ix2 (⟨(i 1).val, idx2_lt1 i⟩ : Fin 4096) k))
    + B (ix2 (0 : Fin 1) (⟨(i 1).val, idx2_lt1 i⟩ : Fin 4096))

/-- A stored block is `rowsOut` on its rows: if the loaded input block holds rows `256·r + p` of `X` and the other four
    loaded blocks are the whole arrays, entry `y` of the stored block is `rowsOut` at row `256·r + y₀`, column `y₁`. -/
theorem stored_eq_rowsOut (X : S8192x4096.Idx → EReal) (VT : S4096x1024.Idx → EReal) (S : S1x1024.Idx → EReal)
    (U : S4096x1024.Idx → EReal) (B : S1x4096.Idx → EReal)
    (x : Vec Ideal S256x4096 .f32) (vt : Vec Ideal S4096x1024 .bf16) (s : Vec Ideal S1x1024 .f32)
    (u : Vec Ideal S4096x1024 .bf16) (b : Vec Ideal S1x4096 .f32) (r : Nat)
    (hx : ∀ (p : Fin 256) (j : Fin 4096) (a : Fin 8192), a.val = r * 256 + p.val → x (ix2 p j) = X (ix2 a j))
    (hvt : ∀ z, vt z = VT z) (hs : ∀ z, s z = S z) (hu : ∀ z, u z = U z) (hb : ∀ z, b z = B z)
    (y : S256x4096.Idx) (i : S8192x4096.Idx) (h0 : (i 0).val = r * 256 + (y 0).val) (h1 : (i 1).val = (y 1).val) :
    k0_pay1 (F := Ideal) x vt s u b y = rowsOut X VT S U B i := by
  obtain ⟨p, q, rfl⟩ : ∃ (p : Fin 256) (q : Fin 4096), y = ix2 p q := ⟨y 0, y 1, eq_ix2 y⟩
  rw [Body.stored_apply]
  unfold rowsOut
  have eq : (⟨(i 1).val, idx2_lt1 i⟩ : Fin 4096) = q := Fin.ext h1
  rw [eq]
  refine congrArg₂ (· + ·) (Finset.sum_congr rfl fun k _ => ?_) (hb _)
  refine congrArg₂ (· * ·) (congrArg₂ (· * ·) (Finset.sum_congr rfl fun j _ => ?_) (hs _)) (hu _)
  exact congrArg₂ (· * ·) (hx p j _ h0) (hvt _)

/-! ## The index maps, decided over the 32 points -/

theorem hz : (![0, 0] : Fin 2 → Nat) = fun _ => 0 := funext fun a => by fin_cases a <;> rfl

/-- The input and the result move down one block of rows per point; the other four windows stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (m : (ℓ : Loc nD τ sig) → Buf (Elt Ideal) ℓ)

/-- WHAT POINT `t` WRITES BACK is block `t` of `rowsOut` of the five arrays as the region finds them. -/
theorem flushed_eq (c : Dev nD) (t : Fin cfg0.N) :
    (dats m 0 c).flushed 5 t = ((cfg0.win 5).blk t).view.read (Elt Ideal)
      (rowsOut (V m c main_v0) (V m c main_v1) (V m c main_v3) (V m c main_v2) (V m c main_v4)) := by
  show (cfg0.win 5).cut (grid0.coords t) ((dats m 0 c).after 5 t) = _
  rw [after0_5]
  unfold out0_5
  rw [View.canon_unit_zero hz]
  simp only [View.ld_unit_zero (S := S256x4096) hz, View.ld_unit_zero (S := S4096x1024) hz,
    View.ld_unit_zero (S := S1x1024) hz, View.ld_unit_zero (S := S1x4096) hz]
  obtain ⟨a00, a01, a10, a11, a20, a21, a30, a31, a40, a41, a50, a51⟩ := idx_facts t
  funext y
  show k0_pay1 (F := Ideal) (iblk m c 0 t) (iblk m c 1 t) (iblk m c 3 t) (iblk m c 2 t) (iblk m c 4 t) y
    = rowsOut (V m c main_v0) (V m c main_v1) (V m c main_v3) (V m c main_v2) (V m c main_v4) (((cfg0.win 5).blk t).view.emb y)
  refine stored_eq_rowsOut (V m c main_v0) (V m c main_v1) (V m c main_v3) (V m c main_v2) (V m c main_v4)
    (iblk m c 0 t) (iblk m c 1 t) (iblk m c 3 t) (iblk m c 2 t) (iblk m c 4 t) t.val ?_ ?_ ?_ ?_ ?_ y
    (((cfg0.win 5).blk t).view.emb y) ?_ ?_
  · intro p j a ha
    show V m c main_v0 (((cfg0.win 0).blk t).view.emb (ix2 p j)) = V m c main_v0 (ix2 a j)
    refine congrArg _ (funext fun ax => Fin.ext ?_)
    match ax with
    | ⟨0, _⟩ => show win0_0.index t (0 : Fin 2) * 256 + 1 * p.val = a.val; omega
    | ⟨1, _⟩ => show win0_0.index t (1 : Fin 2) * 4096 + 1 * j.val = j.val; omega
  · intro z
    show V m c main_v1 (((cfg0.win 1).blk t).view.emb z) = V m c main_v1 z
    refine congrArg _ (funext fun ax => Fin.ext ?_)
    match ax with
    | ⟨0, _⟩ => show win0_1.index t (0 : Fin 2) * 4096 + 1 * (z 0).val = (z 0).val; omega
    | ⟨1, _⟩ => show win0_1.index t (1 : Fin 2) * 1024 + 1 * (z 1).val = (z 1).val; omega
  · intro z
    show V m c main_v3 (((cfg0.win 3).blk t).view.emb z) = V m c main_v3 z
    refine congrArg _ (funext fun ax => Fin.ext ?_)
    match ax with
    | ⟨0, _⟩ => show win0_3.index t (0 : Fin 2) * 1 + 1 * (z 0).val = (z 0).val; omega
    | ⟨1, _⟩ => show win0_3.index t (1 : Fin 2) * 1024 + 1 * (z 1).val = (z 1).val; omega
  · intro z
    show V m c main_v2 (((cfg0.win 2).blk t).view.emb z) = V m c main_v2 z
    refine congrArg _ (funext fun ax => Fin.ext ?_)
    match ax with
    | ⟨0, _⟩ => show win0_2.index t (0 : Fin 2) * 4096 + 1 * (z 0).val = (z 0).val; omega
    | ⟨1, _⟩ => show win0_2.index t (1 : Fin 2) * 1024 + 1 * (z 1).val = (z 1).val; omega
  · intro z
    show V m c main_v4 (((cfg0.win 4).blk t).view.emb z) = V m c main_v4 z
    refine congrArg _ (funext fun ax => Fin.ext ?_)
    match ax with
    | ⟨0, _⟩ => show win0_4.index t (0 : Fin 2) * 1 + 1 * (z 0).val = (z 0).val; omega
    | ⟨1, _⟩ => show win0_4.index t (1 : Fin 2) * 4096 + 1 * (z 1).val = (z 1).val; omega
  · show win0_5.index t (0 : Fin 2) * 256 + 1 * (y 0).val = t.val * 256 + (y 0).val; omega
  · show win0_5.index t (1 : Fin 2) * 4096 + 1 * (y 1).val = (y 1).val; omega

/-- An index of the result is in point `t`'s block iff each coordinate is in the block's range on its axis. -/
theorem mem_blk (t : Fin cfg0.N) (i : S8192x4096.Idx) :
    i ∈ ((cfg0.win 5).blk t).view.set ↔ ∀ a : Fin 2, win0_5.index t a * S256x4096.size a ≤ (i a).val
      ∧ (i a).val < win0_5.index t a * S256x4096.size a + S256x4096.size a := by
  show i ∈ ((View.whole main_v5).slice (win0_5.rect t)).set ↔ _
  rw [View.set_slice_whole, Rect.mem_set_unit]
  exact Iff.rfl

/-- Every entry of the result is written: row `r` by point `r / 256`. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : (i 0).val / 256 < cfg0.N := by show _ < grid0.N; rw [N_0]; omega
  obtain ⟨-, -, -, -, -, -, -, -, -, -, a50, a51⟩ := idx_facts ⟨(i 0).val / 256, hN⟩
  have a50' : win0_5.index ⟨(i 0).val / 256, hN⟩ (0 : Fin 2) = (i 0).val / 256 := a50
  refine ⟨⟨(i 0).val / 256, hN⟩, flush0_5 _, ?_⟩
  rw [mem_blk]
  intro a
  match a with
  | ⟨0, _⟩ =>
    show win0_5.index ⟨(i 0).val / 256, hN⟩ (0 : Fin 2) * 256 ≤ (i 0).val
      ∧ (i 0).val < win0_5.index ⟨(i 0).val / 256, hN⟩ (0 : Fin 2) * 256 + 256
    omega
  | ⟨1, _⟩ =>
    show win0_5.index ⟨(i 0).val / 256, hN⟩ (1 : Fin 2) * 4096 ≤ (i 1).val
      ∧ (i 1).val < win0_5.index ⟨(i 0).val / 256, hN⟩ (1 : Fin 2) * 4096 + 4096
    omega

/-- THE RESULT ARRAY after the last write-back is `rowsOut` of the five arrays as the region finds them. -/
theorem final (c : Dev nD) : (dats m 0 c).arrAt 5 cfg0.N
    = rowsOut (V m c main_v0) (V m c main_v1) (V m c main_v3) (V m c main_v2) (V m c main_v4) :=
  (dats m 0 c).arrAt_eq_of_cover 5 _ (fun t _ => flushed_eq m c t) covered

end Cert.KernelIdeal.Blocks

end
-- ==== Proof.Entry.lean ====
/-
  What the region finds in its five input arrays, read at an entry.

  Before the region the program flattens the input's batch and sequence axes into 8192 rows (row `2048·a + b` is position
  `(a, b)`), changes the float format of the two factors (the identity on exact values), and sets the singular values and
  the bias as one-row matrices.
-/
import proofs.«180880_j33303176413292_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The arrays as terms of the arguments -/

theorem input_eq (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

theorem inFactor_eq (c : Dev nD) : (V m c main_v1 : S4096x1024.Idx → EReal) = m ((c : Thread nD τ).loc main_arg3) := by
  show StableHlo.after hostOps0 (fun b => m (c, b)) (Proc.devRef .tc main_v1) = _
  after_results
  rfl

theorem outFactor_eq (c : Dev nD) : (V m c main_v2 : S4096x1024.Idx → EReal) = m ((c : Thread nD τ).loc main_arg1) := by
  show StableHlo.after hostOps0 (fun b => m (c, b)) (Proc.devRef .tc main_v2) = _
  after_results
  rfl

theorem singular_eq (c : Dev nD) : (V m c main_v3 : S1x1024.Idx → EReal)
    = shapeCast S1x1024 (m ((c : Thread nD τ).loc main_arg2)) shapeCasts_S1024_S1x1024 := by
  show StableHlo.after hostOps0 (fun b => m (c, b)) (Proc.devRef .tc main_v3) = _
  after_results
  rfl

theorem bias_eq (c : Dev nD) : (V m c main_v4 : S1x4096.Idx → EReal)
    = shapeCast S1x4096 (m ((c : Thread nD τ).loc main_arg4)) shapeCasts_S4096_S1x4096 := by
  show StableHlo.after hostOps0 (fun b => m (c, b)) (Proc.devRef .tc main_v4) = _
  after_results
  rfl

/-! ## Read at an entry -/

/-- Row `2048·a + b` of the flattened input is position `(a, b)` of the input. -/
theorem input_apply (c : Dev nD) (a : Fin 4) (b : Fin 2048) (f : Fin 4096) (r : Fin 8192) (hr : r.val = a.val * 2048 + b.val) :
    V m c main_v0 (ix2 r f) = m ((c : Thread nD τ).loc main_arg0) (ix3 a b f) :=
  (congrFun (input_eq m c) (ix2 r f)).trans (shapeCast_apply _ _ (ix2 r f) (ix3 a b f) (by
    rw [Shape.rowMajor_val_three, Shape.rowMajor_val_two]
    show (a.val * 2048 + b.val) * 4096 + f.val = r.val * 4096 + f.val
    omega))

/-- The one row of the singular values' matrix is the vector of singular values. -/
theorem singular_apply (c : Dev nD) (k : Fin 1024) :
    V m c main_v3 (ix2 (0 : Fin 1) k) = m ((c : Thread nD τ).loc main_arg2) (ix1 k) :=
  (congrFun (singular_eq m c) (ix2 (0 : Fin 1) k)).trans (shapeCast_a_1a_apply _ _ 0 k)

/-- The one row of the bias' matrix is the bias vector. -/
theorem bias_apply (c : Dev nD) (o : Fin 4096) :
    V m c main_v4 (ix2 (0 : Fin 1) o) = m ((c : Thread nD τ).loc main_arg4) (ix1 o) :=
  (congrFun (bias_eq m c) (ix2 (0 : Fin 1) o)).trans (shapeCast_a_1a_apply _ _ 0 o)

end Cert.KernelIdeal.Entry

end
-- ==== Proof.KernelRun.lean ====
/-
  The kernel's run, read as the specification.

  After the region the program splits the 8192 rows of the result back into batch and sequence positions: position
  `(a, b)` is row `2048·a + b`. The region leaves the flattened result at `rowsOut` of the five arrays it found; reading
  those arrays back to the program's arguments (the flattened input's row `2048·a + b` is the input at `(a, b)`, the
  factors are unchanged, the one-row matrices are the two vectors) turns `rowsOut` at `(2048·a + b, o)` into the low-rank
  linear layer at `(a, b, o)`.
-/
import proofs.«180880_j33303176413292_2_alg».proof.Proof.Gen.KernelIdeal.Frame
import proofs.«180880_j33303176413292_2_alg».proof.Proof.Blocks
import proofs.«180880_j33303176413292_2_alg».proof.Proof.Entry
import proofs.«180880_j33303176413292_2_alg».proof.Proof.LowRank
import Idealize.ShloMosaic.Lib.Pipeline.Value
import Idealize.ShloMosaic.Lib.StableHlo.Run

noncomputable section

open scoped BigOperators

namespace Cert.KernelIdeal.Spec

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The program's result is the region's array with its rows split back into positions. -/
theorem tail_eq (c : Dev nD) :
    (Pipeline.afterTail₀ cfgs (dats m) 0 (V0 m) [hostOps1] c main_v6 : S4x2048x4096.Idx → EReal)
      = shapeCast S4x2048x4096 ((dats m 0 c).arrAt 5 cfg0.N) shapeCasts_S8192x4096_S4x2048x4096 := by
  unfold Pipeline.afterTail₀
  show StableHlo.after hostOps1 _ (Proc.devRef .tc main_v6) = _
  after_results
  exact congrArg (fun A : S8192x4096.Idx → EReal => shapeCast S4x2048x4096 A shapeCasts_S8192x4096_S4x2048x4096)
    (Pipeline.withArrays_arr spec0 launch0.win.arr_inj c (V0 m c) (fun w => (dats m 0 c).arrAt w cfg0.N) 5)

/-- The flattened result with its rows split back, in terms of the program's arguments, is the low-rank linear layer. -/
theorem unflatten_eq (c : Dev nD) :
    shapeCast S4x2048x4096
        (Blocks.rowsOut (V m c main_v0) (V m c main_v1) (V m c main_v3) (V m c main_v2) (V m c main_v4))
        shapeCasts_S8192x4096_S4x2048x4096
      = Cert.LowRank.linear (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨a, b, o, rfl⟩ : ∃ (a : Fin 4) (b : Fin 2048) (o : Fin 4096), i = ix3 a b o := ⟨i 0, i 1, i 2, eq_ix3 i⟩
  have hr : a.val * 2048 + b.val < 8192 := by have := a.isLt; have := b.isLt; omega
  refine (shapeCast_apply _ _ (ix3 a b o) (ix2 (⟨a.val * 2048 + b.val, hr⟩ : Fin 8192) o) (by
    rw [Shape.rowMajor_val_two, Shape.rowMajor_val_three]
    show (a.val * 2048 + b.val) * 4096 + o.val = (a.val * 2048 + b.val) * 4096 + o.val
    rfl)).trans ?_
  unfold Blocks.rowsOut Cert.LowRank.linear
  refine congrArg₂ (· + ·) (Finset.sum_congr rfl fun k _ => congrArg₂ (· * ·) (congrArg₂ (· * ·)
    (Finset.sum_congr rfl fun f _ => congrArg₂ (· * ·) ?_ ?_) ?_) ?_) ?_
  · exact Entry.input_apply m c a b f _ rfl
  · exact congrFun (Entry.inFactor_eq m c) _
  · exact Entry.singular_apply m c k
  · exact congrFun (Entry.outFactor_eq m c) _
  · exact Entry.bias_apply m c o

/-- Every weakly fair execution of the idealized kernel program terminates with its result at the low-rank linear layer
    of its arguments, and the arguments unchanged. -/
theorem run : θ_run defs (onTc (τ := τ) (main (F := Ideal))) ⟨m, fun _ => 0, ρ⟩ fun r => ∀ c : Dev nD,
      r.2.mem ((c.tc : Thread nD τ).loc main_v6)
        = Cert.LowRank.linear (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨
      (((h c).2 main_v6 (Pipeline.mem_restRefs_of main_v6 (by decide) (by decide))).trans (tail_eq m c)).trans
        ((congrArg (fun A : S8192x4096.Idx → EReal => shapeCast S4x2048x4096 A shapeCasts_S8192x4096_S4x2048x4096)
          (Blocks.final m c)).trans (unflatten_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Spec

end
-- ==== Proof.RefSide.lean ====
/-
  The reference computes the specification.

  Its program is: the input contracted with the input factor over the features; the singular values set along the last
  axis and repeated over the batch and sequence positions; the product of the two; that product contracted with the
  output factor over the ranks (both on their last axis); the bias repeated the same way; the sum. Read at an entry
  `(b, s, o)`, each contraction is a finite sum and each repetition reads the vector at the entry's last coordinate,
  which is the specification's formula term for term.
-/
import proofs.«180880_j33303176413292_2_alg».proof.Proof.Gen.ReferenceIdeal.Read
import proofs.«180880_j33303176413292_2_alg».proof.Proof.LowRank

noncomputable section

open scoped BigOperators

namespace Cert.ReferenceIdeal.Spec

open Cert.ReferenceIdeal Cert.ReferenceIdeal.Gen Cert.ReferenceIdeal.Read Idealize.ShloMosaic Idealize.ShloMosaic.ValueIdx

/-- The reference's result, as the last stage of its run read back, is the low-rank linear layer of its arguments. -/
theorem result_eq (x : (⟨S4x2048x4096, .f32⟩ : BufTy).Contents (Elt Ideal)) (U : (⟨S4096x1024, .f32⟩ : BufTy).Contents (Elt Ideal))
    (S : (⟨S1024, .f32⟩ : BufTy).Contents (Elt Ideal)) (Vt : (⟨S4096x1024, .f32⟩ : BufTy).Contents (Elt Ideal))
    (bias : (⟨S4096, .f32⟩ : BufTy).Contents (Elt Ideal)) :
    val_main_v7 (F := Ideal) x U S Vt bias = Cert.LowRank.linear x U S Vt bias := by
  funext i
  obtain ⟨a, b, o, rfl⟩ : ∃ (a : Fin 4) (b : Fin 2048) (o : Fin 4096), i = ix3 a b o := ⟨i 0, i 1, i 2, eq_ix3 i⟩
  rw [val_main_v7_apply, val_main_v4_apply, val_main_v6_apply, val_main_v5_apply]
  simp only [val_main_v3_apply, val_main_v0_apply, val_main_v2_apply, val_main_v1_apply]
  unfold Cert.LowRank.linear
  refine congrArg₂ (· + ·) (Finset.sum_congr rfl fun r _ => congrArg₂ (· * ·) (congrArg₂ (· * ·)
    (Finset.sum_congr rfl fun f _ => congrArg₂ (· * ·) (congrArg x ?_) (congrArg Vt ?_)) (congrArg S ?_)) (congrArg U ?_))
    (congrArg bias ?_)
  · exact funext fun ax => Fin.ext (by match ax with | ⟨0, _⟩ => rfl | ⟨1, _⟩ => rfl | ⟨2, _⟩ => rfl)
  · exact funext fun ax => Fin.ext (by match ax with | ⟨0, _⟩ => rfl | ⟨1, _⟩ => rfl)
  · exact funext fun ax => Fin.ext (by match ax with | ⟨0, _⟩ => rfl)
  · exact funext fun ax => Fin.ext (by match ax with | ⟨0, _⟩ => rfl | ⟨1, _⟩ => rfl)
  · exact funext fun ax => Fin.ext (by match ax with | ⟨0, _⟩ => rfl)

end Cert.ReferenceIdeal.Spec

end
-- ==== Proof.lean ====
/-
  A linear layer with its 4096×4096 weight held as a rank-1024 factorization, as a tiled kernel and as plain array code.

  Both programs compute, for every position `(b, s)` and output feature `o`,

    y[b, s, o] = (∑ r, ((∑ i, x[b, s, i] · Vt[i, r]) · S[r]) · U[o, r]) + bias[o].

  The kernel flattens the positions into 8192 rows, gives each of 32 grid points a block of 256 rows, and per block
  projects onto the ranks, scales by the singular values, expands to the output features and adds the bias; the blocks
  tile the rows, so the flattened result is one function of the inputs, and splitting the rows back into positions gives
  the formula above. The reference contracts, scales, contracts and adds on whole arrays, which read at an entry is the
  same formula. Over the extended reals the two are the same expression, grouping included: no input has to be finite
  for the results to agree, and no operation was rewritten in idealizing the kernel.
-/
import proofs.«180880_j33303176413292_2_alg».proof.Defs
import proofs.«180880_j33303176413292_2_alg».proof.Proof.Gen.Kernel
import proofs.«180880_j33303176413292_2_alg».proof.Proof.Gen.Kernel.Skeleton
import proofs.«180880_j33303176413292_2_alg».proof.Proof.Gen.Kernel.Launch
import proofs.«180880_j33303176413292_2_alg».proof.Proof.Gen.Kernel.Points
import proofs.«180880_j33303176413292_2_alg».proof.Proof.Gen.Kernel.Frame
import proofs.«180880_j33303176413292_2_alg».proof.Proof.Gen.KernelIdeal
import proofs.«180880_j33303176413292_2_alg».proof.Proof.Gen.KernelIdeal.Skeleton
import proofs.«180880_j33303176413292_2_alg».proof.Proof.Gen.KernelIdeal.Launch
import proofs.«180880_j33303176413292_2_alg».proof.Proof.Gen.KernelIdeal.Points
import proofs.«180880_j33303176413292_2_alg».proof.Proof.Gen.KernelIdeal.Frame
import proofs.«180880_j33303176413292_2_alg».proof.Proof.Gen.ReferenceIdeal
import proofs.«180880_j33303176413292_2_alg».proof.Proof.Gen.ReferenceIdeal.Run
import proofs.«180880_j33303176413292_2_alg».proof.Proof.Gen.ReferenceIdeal.Read
import proofs.«180880_j33303176413292_2_alg».proof.Proof.Gen.Pre_finite_inputs
import proofs.«180880_j33303176413292_2_alg».proof.Proof.LowRank
import proofs.«180880_j33303176413292_2_alg».proof.Proof.KernelRun
import proofs.«180880_j33303176413292_2_alg».proof.Proof.RefSide
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference has no kernel: its run, with the result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the five arguments, both idealized programs end with the low-rank linear layer of
    those arguments as their result. -/
theorem algebraic : Cert.algebraic_KernelIdeal_ReferenceIdeal := by
  intro m ρ m' ρ' _ hagree
  refine ⟨fun c => Cert.LowRank.linear (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Spec.run m ρ, ?_⟩
  refine (θ_run Cert.ReferenceIdeal.defs _ _).mono (fun _ h c => ⟨?_, (h c).2⟩) (Cert.ReferenceIdeal.Value.run (F := Ideal) m' ρ')
  refine (h c).1.trans ((Cert.ReferenceIdeal.Read.val_main_v7_eq _ _ _ _ _).trans ((Cert.ReferenceIdeal.Spec.result_eq _ _ _ _ _).trans ?_))
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
